-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S10000x128 : Shape := ⟨2, ![10000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S10000x40 : Shape := ⟨2, ![10000, 40]⟩
abbrev S800000x40 : Shape := ⟨2, ![800000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 43
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .bf16⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x40, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x40, .bf16⟩
  | .hbm, ⟨36, _⟩ => ⟨S800000x40, .f32⟩
  | .hbm, ⟨37, _⟩ => ⟨S_, .f32⟩
  | .hbm, ⟨38, _⟩ => ⟨S50000x40, .f32⟩
  | .hbm, ⟨39, _⟩ => ⟨S800000x1, .i32⟩
  | .hbm, ⟨40, _⟩ => ⟨S50000x40, .f32⟩
  | .hbm, ⟨41, _⟩ => ⟨S1x40, .f32⟩
  | .hbm, ⟨42, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x40, .f32⟩
  | .local _ .vmem, ⟨9, _⟩ => ⟨S10000x40, .bf16⟩
  | .local _ .vmem, ⟨10, _⟩ => ⟨S10000x40, .bf16⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  packedbf16_S10000x40_S10000x40_0_0 : (Rect.unit (s := S10000x40) ![0, 0] S10000x40.size inb_S10000x40_S10000x40_0_0).PackedRows (EltTy.packing .bf16)
  bcast_S_S50000x40 : S_.BroadcastsInDim S50000x40 (![] : Fin 0 → Fin S50000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x40_S10000x40_1_0_0_1_n_n_wf : DotDims.WF S10000x128 S128x40 S10000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S50000x40.size a
  hwx1_3 : ∀ i : grid1.Coords, EltTy.bits .bf16 = 32 ∨ (Rect.block (s := S50000x40) S10000x40.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S50000x40.size a
  hwx2_0 : ∀ i : grid2.Coords, EltTy.bits .f32 = 32 ∨ (Rect.block (s := S50000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S50000x40.size a
  hwx2_2 : ∀ i : grid2.Coords, EltTy.bits .f32 = 32 ∨ (Rect.block (s := S50000x40) S10000x40.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S50000x40, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .hbm, ⟨46, _⟩ => ⟨S50000x40, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x40, .f32⟩
  | .hbm, ⟨54, _⟩ => ⟨S50000x40, .f32⟩
  | .hbm, ⟨55, _⟩ => ⟨S50000x40, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x1, .f32⟩
  | .hbm, ⟨60, _⟩ => ⟨S50000x40, .f32⟩
  | .hbm, ⟨61, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibGcnStages.lean ====
/-
  The dense stages of a two-layer graph convolution with a log-softmax head, read entry by entry on the extended reals,
  generic in the row count and the widths, each in the spelling of a vector unit's kernel body and in the host's spelling:
  * `dense`: a matrix product, entry `(p, q)` the sum over `k` of `x (p, k) · w (k, q)`;
  * `reluDense`: a bias added along the rows, floored at zero, then a matrix product;
  * `logSoftmaxRow`, `biasLogSoftmax`: a bias added along the rows, then along each row the entries minus the row's
    maximum minus the logarithm of the sum of the exponentials of those differences.
  The kernel spellings round operands to bfloat16 (the identity on the extended reals), take each product into a zero
  accumulator, keep the row's maximum and sum as a column and repeat them along the lanes; the host spellings use
  `dot_general`, two-step broadcasts of a bias, one-operand reductions, and take the maximum of the row's maximum with the
  reduction's own starting value `-∞` once more, which changes nothing.  No finiteness is needed: each pair of spellings is
  the same sums, maxima and differences of the same entries.
-/
import Idealize.ShloMosaic.Lib.ValueIdx
import Idealize.ShloMosaic.Lib.ValueLayout
import Idealize.ShloMosaic.Lib.Pipeline.Value
import Idealize.ShloMosaic.PureOps.Ideal.Laws
import proofs.«158632_j30485677867756_2_alg».proof.Proof.LibMlpRows
import proofs.«158632_j30485677867756_2_alg».proof.Proof.LibLaneFolds
import proofs.«158632_j30485677867756_2_alg».proof.Proof.LibColumns

noncomputable section

namespace Cert.LibGcn

open Idealize.ShloMosaic Idealize.ShloMosaic.ValueIdx
open scoped BigOperators

/-- An `[r, c]` array of extended reals. -/
abbrev Mat (r c : ℕ) : Type := (⟨2, ![r, c]⟩ : Shape).Idx → EReal
/-- An `[n]` array of extended reals. -/
abbrev Row (n : ℕ) : Type := (⟨1, ![n]⟩ : Shape).Idx → EReal

/-- The value of the binary32 zero word: the floor of a ReLU. -/
abbrev zeroWord : EReal := Ideal.ofBits .f32 0x00000000#32
/-- The value of the binary32 word of `-∞`: where a row maximum starts. -/
abbrev negInfWord : EReal := Ideal.ofBits .f32 0xFF800000#32

/-! ## The three stages as functions of whole arrays -/

/-- The matrix product `x · w`. -/
def dense {R I O : ℕ} (x : Mat R I) (w : Mat I O) : Mat R O :=
  fun i => ∑ k : Fin I, x (ix2 (i 0) k) * w (ix2 k (i 1))

theorem dense_ix2 {R I O : ℕ} (x : Mat R I) (w : Mat I O) (p : Fin R) (q : Fin O) :
    dense x w (ix2 p q) = ∑ k : Fin I, x (ix2 p k) * w (ix2 k q) := rfl

/-- `relu (a + b) · w`, the bias `b` given as one row `[1, H]`. -/
def reluDenseRow {R H O : ℕ} (a : Mat R H) (b : Mat 1 H) (w : Mat H O) : Mat R O :=
  fun i => ∑ k : Fin H, max (a (ix2 (i 0) k) + b (ix2 (0 : Fin 1) k)) zeroWord * w (ix2 k (i 1))

/-- `relu (a + b) · w`, the bias `b` a vector of `H` entries. -/
def reluDense {R H O : ℕ} (a : Mat R H) (b : Row H) (w : Mat H O) : Mat R O :=
  fun i => ∑ k : Fin H, max (a (ix2 (i 0) k) + b (ix1 k)) zeroWord * w (ix2 k (i 1))

theorem reluDense_ix2 {R H O : ℕ} (a : Mat R H) (b : Row H) (w : Mat H O) (p : Fin R) (q : Fin O) :
    reluDense a b w (ix2 p q) = ∑ k : Fin H, max (a (ix2 p k) + b (ix1 k)) zeroWord * w (ix2 k q) := rfl

/-- The log-softmax of one row: each entry minus the row's maximum (taken from `-∞`), minus the logarithm of the sum of the
    exponentials of those differences. -/
def logSoftmaxRow {C : ℕ} (row : Fin C → EReal) (q : Fin C) : EReal :=
  (row q - (Finset.univ : Finset (Fin C)).fold max negInfWord row)
    - Ideal.log (∑ k : Fin C, Ideal.exp (row k - (Finset.univ : Finset (Fin C)).fold max negInfWord row))

/-- The log-softmax along the rows of `a + b`, the bias `b` given as one row `[1, C]`. -/
def biasLogSoftmaxRow {R C : ℕ} (a : Mat R C) (b : Mat 1 C) : Mat R C :=
  fun i => logSoftmaxRow (fun k => a (ix2 (i 0) k) + b (ix2 (0 : Fin 1) k)) (i 1)

/-- The log-softmax along the rows of `a + b`, the bias `b` a vector of `C` entries. -/
def biasLogSoftmax {R C : ℕ} (a : Mat R C) (b : Row C) : Mat R C :=
  fun i => logSoftmaxRow (fun k => a (ix2 (i 0) k) + b (ix1 k)) (i 1)

/-- A bias laid out as one row by a cast of a vector is that vector, entry by entry. -/
theorem reluDenseRow_cast {R H O : ℕ} (a : Mat R H) (b : Row H) (w : Mat H O) (h : (⟨1, ![H]⟩ : Shape).ShapeCasts ⟨2, ![1, H]⟩) :
    reluDenseRow a (shapeCast ⟨2, ![1, H]⟩ b h) w = reluDense a b w := by
  funext i
  simp only [reluDenseRow, reluDense, shapeCast_a_1a_apply]

theorem biasLogSoftmaxRow_cast {R C : ℕ} (a : Mat R C) (b : Row C) (h : (⟨1, ![C]⟩ : Shape).ShapeCasts ⟨2, ![1, C]⟩) :
    biasLogSoftmaxRow a (shapeCast ⟨2, ![1, C]⟩ b h) = biasLogSoftmax a b := by
  funext i
  simp only [biasLogSoftmaxRow, biasLogSoftmax, shapeCast_a_1a_apply]

/-! ## The kernel spellings -/

theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- A kernel's matrix product: operands rounded to bfloat16, the product into a zero accumulator, the result rounded. -/
theorem kernel_dense_apply {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) (ht : FTy.bf16.bits < FTy.f32.bits) (p : Fin R) (q : Fin O) :
    (truncf .bf16 (matmul d none (truncf .bf16 x ht) (truncf .bf16 w ht) (constant ⟨2, ![R, O]⟩ .f32 0x00000000#32)) ht
        : FVec Ideal ⟨2, ![R, O]⟩ .bf16) (ix2 p q)
      = dense x w (ix2 p q) := by
  subst hd
  simp only [dense_ix2, matmul, truncf_apply, LibMlp.matmul_zero_plain]

/-- A kernel's bias, ReLU and matrix product: the bias one row repeated down the rows, the floor a zero splat. -/
theorem kernel_reluDense_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨2, ![1, H]⟩ .f32) (w : FVec Ideal ⟨2, ![H, O]⟩ .f32)
    (ha : (⟨2, ![R, H]⟩ : Shape).ShapeCasts ⟨2, ![R, H]⟩) (hb : (⟨2, ![1, H]⟩ : Shape).ShapeCasts ⟨2, ![1, H]⟩)
    (hB : (⟨2, ![1, H]⟩ : Shape).Broadcasts ⟨2, ![R, H]⟩) (ht : FTy.bf16.bits < FTy.f32.bits) (p : Fin R) (q : Fin O) :
    (truncf .bf16 (matmul d none
        (truncf .bf16 (maximumf (addf (shapeCast ⟨2, ![R, H]⟩ a ha) (broadcastTo ⟨2, ![R, H]⟩ (shapeCast ⟨2, ![1, H]⟩ b hb) hB))
          (broadcast ⟨2, ![R, H]⟩ (Scalar.ofBits .f32 0x00000000#32))) ht)
        (truncf .bf16 w ht) (constant ⟨2, ![R, O]⟩ .f32 0x00000000#32)) ht : FVec Ideal ⟨2, ![R, O]⟩ .bf16) (ix2 p q)
      = reluDenseRow a b w (ix2 p q) := by
  subst hd
  simp only [reluDenseRow, matmul, truncf_apply, LibMlp.matmul_zero_plain, maximumf_apply, addf_apply, shapeCast_self,
    broadcastTo_1b_ab_apply, broadcast_apply]
  rfl

/-- A kernel's bias and log-softmax along the lanes: the row's maximum and the sum of exponentials each kept as a column
    and repeated along the lanes. -/
theorem kernel_biasLogSoftmax_apply {R C : ℕ} (a : FVec Ideal ⟨2, ![R, C]⟩ .f32) (b : FVec Ideal ⟨2, ![1, C]⟩ .f32)
    (ha : (⟨2, ![R, C]⟩ : Shape).ShapeCasts ⟨2, ![R, C]⟩) (hb : (⟨2, ![1, C]⟩ : Shape).ShapeCasts ⟨2, ![1, C]⟩)
    (hB : (⟨2, ![1, C]⟩ : Shape).Broadcasts ⟨2, ![R, C]⟩)
    (hr : (⟨2, ![R, C]⟩ : Shape).Reduces [1] ⟨1, ![R]⟩) (hφ : FKind.Formats .f32)
    (hmax : (0xFF800000#32 : BitVec 32) = FKind.maximumf.neutral .f32 hφ) (hadd : (0x00000000#32 : BitVec 32) = FKind.add.neutral .f32 hφ)
    (hc : (⟨1, ![R]⟩ : Shape).ShapeCasts ⟨2, ![R, 1]⟩) (hC : (⟨2, ![R, 1]⟩ : Shape).Broadcasts ⟨2, ![R, C]⟩)
    (p : Fin R) (q : Fin C) :
    subf (subf (addf (shapeCast ⟨2, ![R, C]⟩ a ha) (broadcastTo ⟨2, ![R, C]⟩ (shapeCast ⟨2, ![1, C]⟩ b hb) hB))
          (broadcastTo ⟨2, ![R, C]⟩ (shapeCast ⟨2, ![R, 1]⟩
            (multiReduction .maximumf [1] ⟨1, ![R]⟩ (addf (shapeCast ⟨2, ![R, C]⟩ a ha) (broadcastTo ⟨2, ![R, C]⟩ (shapeCast ⟨2, ![1, C]⟩ b hb) hB))
              0xFF800000#32 hr hφ hmax) hc) hC))
      (broadcastTo ⟨2, ![R, C]⟩ (log (shapeCast ⟨2, ![R, 1]⟩
        (multiReduction .add [1] ⟨1, ![R]⟩
          (exp (subf (addf (shapeCast ⟨2, ![R, C]⟩ a ha) (broadcastTo ⟨2, ![R, C]⟩ (shapeCast ⟨2, ![1, C]⟩ b hb) hB))
            (broadcastTo ⟨2, ![R, C]⟩ (shapeCast ⟨2, ![R, 1]⟩
              (multiReduction .maximumf [1] ⟨1, ![R]⟩ (addf (shapeCast ⟨2, ![R, C]⟩ a ha) (broadcastTo ⟨2, ![R, C]⟩ (shapeCast ⟨2, ![1, C]⟩ b hb) hB))
                0xFF800000#32 hr hφ hmax) hc) hC)))
          0x00000000#32 hr hφ hadd) hc)) hC) (ix2 p q)
      = biasLogSoftmaxRow a b (ix2 p q) := by
  have hX : ∀ (p' : Fin R) (k : Fin C),
      addf (shapeCast ⟨2, ![R, C]⟩ a ha) (broadcastTo ⟨2, ![R, C]⟩ (shapeCast ⟨2, ![1, C]⟩ b hb) hB) (ix2 p' k)
        = a (ix2 p' k) + b (ix2 (0 : Fin 1) k) := fun p' k => by
    rw [addf_apply, shapeCast_self, shapeCast_self, broadcastTo_1b_ab_apply]
  generalize addf (shapeCast ⟨2, ![R, C]⟩ a ha) (broadcastTo ⟨2, ![R, C]⟩ (shapeCast ⟨2, ![1, C]⟩ b hb) hB) = X at hX ⊢
  have hM : ∀ (p' : Fin R) (q' : Fin C),
      broadcastTo ⟨2, ![R, C]⟩ (shapeCast ⟨2, ![R, 1]⟩ (multiReduction .maximumf [1] ⟨1, ![R]⟩ X 0xFF800000#32 hr hφ hmax) hc) hC (ix2 p' q')
        = (Finset.univ : Finset (Fin C)).fold max negInfWord (fun k => X (ix2 p' k)) := fun p' q' => by
    rw [Columns.broadcastTo_a1_ab_apply, Columns.shapeCast_a_a1_apply]
    exact LaneFolds.laneMax_apply X _ hr hφ hmax p'
  rw [subf_apply, subf_apply, hM, Columns.broadcastTo_a1_ab_apply, log_apply, Columns.shapeCast_a_a1_apply,
    LaneFolds.laneSum_apply _ _ hr hφ hadd p]
  unfold biasLogSoftmaxRow logSoftmaxRow
  simp only [exp_apply, subf_apply, hM, hX]
  rfl

/-! ## The host spellings -/

/-- A vector broadcast to one row and then down the rows reads, at `(p, k)`, the vector's entry `k`. -/
theorem hostBias_apply {R H : ℕ} (b : (⟨1, ![H]⟩ : Shape).Idx → EReal)
    (hb : (⟨1, ![H]⟩ : Shape).BroadcastsInDim ⟨2, ![1, H]⟩ ![1]) (hB : (⟨2, ![1, H]⟩ : Shape).BroadcastsInDim ⟨2, ![R, H]⟩ ![0, 1])
    (p : Fin R) (k : Fin H) :
    broadcastInDim ⟨2, ![R, H]⟩ ![0, 1] hB (broadcastInDim ⟨2, ![1, H]⟩ ![1] hb b) (ix2 p k) = b (ix1 k) := by
  rw [broadcastInDim_apply ![0, 1] hB _ (ix2 p k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A scalar broadcast to any shape reads the scalar everywhere. -/
theorem hostSplat_apply {t : Shape} (v : (⟨0, ![]⟩ : Shape).Idx → EReal) (hz : (⟨0, ![]⟩ : Shape).BroadcastsInDim t ![]) (j : t.Idx) :
    broadcastInDim t ![] hz v j = v ix0 :=
  broadcastInDim_apply ![] hz v j ix0 (fun a => a.elim0)

/-- A vector of `R` entries broadcast to a column and then along `C` lanes reads, at `(p, q)`, the vector's entry `p`. -/
theorem hostColumn_apply {R C : ℕ} (v : (⟨1, ![R]⟩ : Shape).Idx → EReal)
    (hc : (⟨1, ![R]⟩ : Shape).BroadcastsInDim ⟨2, ![R, 1]⟩ ![0]) (hC : (⟨2, ![R, 1]⟩ : Shape).BroadcastsInDim ⟨2, ![R, C]⟩ ![0, 1])
    (f : EReal → EReal) (p : Fin R) (q : Fin C) :
    broadcastInDim ⟨2, ![R, C]⟩ ![0, 1] hC (fun i => f (broadcastInDim ⟨2, ![R, 1]⟩ ![0] hc v i)) (ix2 p q) = f (v (ix1 p)) := by
  rw [broadcastInDim_apply ![0, 1] hC _ (ix2 p q) (ix2 p (0 : Fin 1)) (fun a => by
    match a with
    | ⟨0, _⟩ => show p.val = if R = 1 then 0 else p.val; split <;> [(have := p.isLt; omega); rfl]
    | ⟨1, _⟩ => rfl)]
  exact congrArg f (broadcastInDim_apply ![0] hc _ (ix2 p (0 : Fin 1)) (ix1 p) (fun a => by
    match a with
    | ⟨0, _⟩ => show p.val = if R = 1 then 0 else p.val; split <;> [(have := p.isLt; omega); rfl]))

/-- The host's sum along the lanes, at row `p`: the initial value plus the sum of the row's entries. -/
theorem hostLaneSum_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (Ideal.hostReduceAdd_single h' h x (init (Shape.Idx.first hu)) (ix1 p)).trans
    (congrArg (fun s : EReal => init (Shape.Idx.first hu) + s)
      (Finset.sum_congr rfl fun k _ => congrArg x (funext fun d => Fin.ext (by
        match d with
        | ⟨0, _⟩ => rfl
        | ⟨1, _⟩ => rfl))))

/-- The host's matrix product. -/
theorem host_dense_apply {R I O : ℕ} (d : DotDims ⟨2, ![R, I]⟩ ⟨2, ![I, O]⟩ ⟨2, ![R, O]⟩) (hd : d = DotDims.plain R I O)
    (x : FVec Ideal ⟨2, ![R, I]⟩ .f32) (w : FVec Ideal ⟨2, ![I, O]⟩ .f32) (p : Fin R) (q : Fin O) :
    Host.dotGeneral d none x w (ix2 p q) = dense x w (ix2 p q) := by
  subst hd
  simp only [dense_ix2, Host.dotGeneral, LibMlp.dotGeneral_plain]

/-- The host's bias, ReLU and matrix product: the bias broadcast in two steps, the floor a broadcast zero. -/
theorem host_reluDense_apply {R H O : ℕ} (d : DotDims ⟨2, ![R, H]⟩ ⟨2, ![H, O]⟩ ⟨2, ![R, O]⟩) (hd : d = DotDims.plain R H O)
    (a : FVec Ideal ⟨2, ![R, H]⟩ .f32) (b : FVec Ideal ⟨1, ![H]⟩ .f32) (w : FVec Ideal ⟨2, ![H, O]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) (p : Fin R) (q : Fin O) :
    Host.dotGeneral d none
        (maximumf (addf a (broadcastInDim ⟨2, ![R, H]⟩ ![0, 1] hB (broadcastInDim ⟨2, ![1, H]⟩ ![1] hb b)))
          (broadcastInDim ⟨2, ![R, H]⟩ ![] hz (constant (F := Ideal) ⟨0, ![]⟩ .f32 0x00000000#32))) w (ix2 p q)
      = reluDense a b w (ix2 p q) := by
  subst hd
  have bias : ∀ (r : Fin R) (k : Fin H),
      broadcastInDim ⟨2, ![R, H]⟩ ![0, 1] hB (broadcastInDim ⟨2, ![1, H]⟩ ![1] hb b) (ix2 r k) = b (ix1 k) :=
    fun r k => hostBias_apply b hb hB r k
  have zero : ∀ (r : Fin R) (k : Fin H),
      broadcastInDim ⟨2, ![R, H]⟩ ![] hz (constant (F := Ideal) ⟨0, ![]⟩ .f32 0x00000000#32) (ix2 r k) = zeroWord :=
    fun r k => hostSplat_apply _ hz _
  simp only [reluDense_ix2, Host.dotGeneral, LibMlp.dotGeneral_plain, maximumf_apply, addf_apply, bias, zero]

/-- Taking the maximum with `-∞` once more changes no row maximum that was itself taken from `-∞`. -/
theorem max_fold_self {C : ℕ} (z : EReal) (row : Fin C → EReal) :
    max z ((Finset.univ : Finset (Fin C)).fold max z row) = (Finset.univ : Finset (Fin C)).fold max z row :=
  max_eq_right ((Finset.le_fold_max (s := Finset.univ) (f := row) (b := z) (c := z)).2 (Or.inl le_rfl))

/-- The host's log-softmax along the lanes of `X`. -/
theorem host_logSoftmax_apply {R C : ℕ} (X : FVec Ideal ⟨2, ![R, C]⟩ .f32)
    (hr' : (⟨2, ![R, C]⟩ : Shape).ReducesTo [1] ⟨1, ![R]⟩) (hr : (⟨2, ![R, C]⟩ : Shape).Reduces [1] ⟨1, ![R]⟩)
    (hu : 0 < (⟨0, ![]⟩ : Shape).numel) (hz : (⟨0, ![]⟩ : Shape).BroadcastsInDim ⟨1, ![R]⟩ ![])
    (hc : (⟨1, ![R]⟩ : Shape).BroadcastsInDim ⟨2, ![R, 1]⟩ ![0]) (hC : (⟨2, ![R, 1]⟩ : Shape).BroadcastsInDim ⟨2, ![R, C]⟩ ![0, 1])
    (p : Fin R) (q : Fin C) :
    subf (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu)))))
      (broadcastInDim ⟨2, ![R, C]⟩ ![0, 1] hC (Host.log (broadcastInDim ⟨2, ![R, 1]⟩ ![0] hc
        (Host.reduceAdd (Host.exp (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu))))))
          (constant (F := Ideal) ⟨0, ![]⟩ .f32 0x00000000#32) hr' hu)))) (ix2 p q)
      = logSoftmaxRow (fun k => X (ix2 p k)) q := by
  have hM : ∀ (p' : Fin R) (q' : Fin C), broadcastInDim ⟨2, ![R, C]⟩ ![0, 1] hC (broadcastInDim ⟨2, ![R, 1]⟩ ![0] hc
        (maximumf (broadcastInDim ⟨1, ![R]⟩ ![] hz (constant (F := Ideal) ⟨0, ![]⟩ .f32 0xFF800000#32))
          (Host.reduce (FloatOps.maximumf (F := Ideal) (φ := .f32)) X (constant (F := Ideal) ⟨0, ![]⟩ .f32 0xFF800000#32) hr' hu))) (ix2 p' q')
      = (Finset.univ : Finset (Fin C)).fold max negInfWord (fun k => X (ix2 p' k)) := fun p' q' => by
    refine (hostColumn_apply _ hc hC id p' q').trans ?_
    show max _ _ = _
    rw [hostSplat_apply, LaneFolds.hostLaneMax_apply X _ hr' hr hu p']
    exact max_fold_self _ _
  have hS : ∀ (p' : Fin R), Host.reduceAdd (Host.exp (subf X (broadcastInDim ⟨2, ![R, C]⟩ ![0, 1] hC (broadcastInDim ⟨2, ![R, 1]⟩ ![0] hc
            (maximumf (broadcastInDim ⟨1, ![R]⟩ ![] hz (constant (F := Ideal) ⟨0, ![]⟩ .f32 0xFF800000#32))
              (Host.reduce (FloatOps.maximumf (F := Ideal) (φ := .f32)) X (constant (F := Ideal) ⟨0, ![]⟩ .f32 0xFF800000#32) hr' hu))))))
          (constant (F := Ideal) ⟨0, ![]⟩ .f32 0x00000000#32) hr' hu (ix1 p')
      = ∑ k : Fin C, Ideal.exp (X (ix2 p' k) - (Finset.univ : Finset (Fin C)).fold max negInfWord (fun k => X (ix2 p' k))) := fun p' => by
    rw [hostLaneSum_apply _ _ hr' hr hu p']
    simp only [hostExp_apply, subf_apply, hM, constant_apply, Ideal.ofBits_zero_f32, zero_add]
  rw [subf_apply, subf_apply, hM]
  refine congrArg (fun s : EReal => X (ix2 p q) - (Finset.univ : Finset (Fin C)).fold max negInfWord (fun k => X (ix2 p k)) - s) ?_
  exact (hostColumn_apply _ hc hC Ideal.log p q).trans (congrArg Ideal.log (hS p))

/-- The host's bias and log-softmax: the bias broadcast in two steps. -/
theorem host_biasLogSoftmax_apply {R C : ℕ} (a : FVec Ideal ⟨2, ![R, C]⟩ .f32) (b : FVec Ideal ⟨1, ![C]⟩ .f32)
    (hb : (⟨1, ![C]⟩ : Shape).BroadcastsInDim ⟨2, ![1, C]⟩ ![1]) (hB : (⟨2, ![1, C]⟩ : Shape).BroadcastsInDim ⟨2, ![R, C]⟩ ![0, 1])
    (p : Fin R) (q : Fin C) :
    logSoftmaxRow (fun k => addf a (broadcastInDim ⟨2, ![R, C]⟩ ![0, 1] hB (broadcastInDim ⟨2, ![1, C]⟩ ![1] hb b)) (ix2 p k)) q
      = biasLogSoftmax a b (ix2 p q) := by
  have bias : ∀ (r : Fin R) (k : Fin C),
      broadcastInDim ⟨2, ![R, C]⟩ ![0, 1] hB (broadcastInDim ⟨2, ![1, C]⟩ ![1] hb b) (ix2 r k) = b (ix1 k) :=
    fun r k => hostBias_apply b hb hB r k
  simp only [biasLogSoftmax, addf_apply, bias]
  rfl

end Cert.LibGcn

end
-- ==== Proof.Region0.lean ====
/-
  The first launch: every block of 10000 rows of `x` is multiplied by the whole of `W1`, and the five blocks of the result tile
  the `[50000, 128]` output, so after the launch that array is the matrix product `x · W1` of the arrays the launch found,
  entry by entry: row `10000 t + p` of the output is row `p` of block `t`, which reads row `10000 t + p` of `x`.
-/
import proofs.«158632_j30485677867756_2_alg».proof.Proof.Gen.KernelIdeal.Frame
import proofs.«158632_j30485677867756_2_alg».proof.Proof.LibGcnStages
import Idealize.ShloMosaic.Lib.Pipeline.Value

set_option maxRecDepth 16384

noncomputable section

namespace Cert.KernelIdeal.Whole

open Cert.KernelIdeal Cert.KernelIdeal.Gen Cert.LibGcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry: row `p` of the block of `x` times column `q` of `W1`. -/
theorem pay0_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) :=
  (kernel_dense_apply dot_S10000x128_S128x128_S10000x128_1_0_0_1_n_n rfl x0 x1 bitsLt_bf16_f32 p q).trans (dense_ix2 x0 x1 p q)

/-- Where the three windows' blocks sit at grid point `t`: the row blocks of `x` and of the output at block row `t`,
    `W1` whole. -/
theorem block_rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of `x` at point `t` is row `10000 t + p` of `x`. -/
theorem xblock0_apply (c : Dev nD) (t : Fin cfg0.N) (y : S10000x128.Idx) (i : S50000x128.Idx)
    (h0 : (i 0).val = t.val * 10000 + (y 0).val) (h1 : (i 1).val = (y 1).val) :
    (iblk0 V c 0 t : Vec Ideal S10000x128 .f32) y = (V c main_arg0 : S50000x128.Idx → Ideal .f32) i := by
  obtain ⟨e0, e1, -⟩ := block_rows0 t
  unfold iblk0
  rw [View.read_apply]
  show V c main_arg0 _ = V c main_arg0 _
  refine congrArg _ (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The block of `W1` at any point is `W1`. -/
theorem wblock0_apply (c : Dev nD) (t : Fin cfg0.N) (y : S128x128.Idx) :
    (iblk0 V c 1 t : Vec Ideal S128x128 .f32) y = (V c main_arg2 : S128x128.Idx → Ideal .f32) y := by
  obtain ⟨-, -, e0, e1, -⟩ := block_rows0 t
  unfold iblk0
  rw [View.read_apply]
  show V c main_arg2 _ = V c main_arg2 _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point `t` writes back is block `t` of `x · W1`. -/
theorem flushed0_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e0, e1⟩ := block_rows0 t
  funext y
  obtain ⟨p, q, rfl⟩ : ∃ (p : Fin 10000) (q : Fin 128), y = ix2 p q := ⟨y 0, y 1, eq_ix2 y⟩
  have hN : cfg0.N = 5 := N_0
  have ht : t.val < 5 := hN ▸ t.isLt
  have hrow : t.val * 10000 + p.val < 50000 := by have := p.isLt; omega
  show k0_pay1 (iblk0 V c 0 t) (iblk0 V c 1 t) (ix2 p q) = dense (V c main_arg0) (V c main_arg2) (((cfg0.win 2).blk t).view.emb (ix2 p q))
  have hemb : ((cfg0.win 2).blk t).view.emb (ix2 p q) = (ix2 (⟨t.val * 10000 + p.val, hrow⟩ : Fin 50000) q : S50000x128.Idx) := by
    funext a; apply Fin.ext
    match a with
    | ⟨0, _⟩ => show win0_2.index t (0 : Fin 2) * 10000 + 1 * p.val = t.val * 10000 + p.val; rw [e0]; omega
    | ⟨1, _⟩ => show win0_2.index t (1 : Fin 2) * 128 + 1 * q.val = q.val; rw [e1]; omega
  rw [hemb, pay0_apply, dense_ix2]
  refine Finset.sum_congr rfl fun k _ => ?_
  rw [xblock0_apply V c t (ix2 p k) (ix2 (⟨t.val * 10000 + p.val, hrow⟩ : Fin 50000) k) rfl rfl, wblock0_apply V c t (ix2 k q)]

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- The five row blocks cover the output: row `r` is in block `r / 10000`. -/
theorem cover0 (i : S50000x128.Idx) : ∃ t : Fin cfg0.N, (cfg0.win 2).flush t = true ∧ i ∈ ((cfg0.win 2).blk t).view.set := by
  have hN : cfg0.N = 5 := N_0
  have hi0 : (i 0).val < 50000 := (i 0).isLt
  have hi1 : (i 1).val < 128 := (i 1).isLt
  let t : Fin cfg0.N := ⟨(i 0).val / 10000, by rw [hN]; omega⟩
  obtain ⟨-, -, -, -, e0, e1⟩ := block_rows0 t
  refine ⟨t, flush0_2 t, ?_⟩
  rw [mem_blk0]
  intro a
  have ht : t.val = (i 0).val / 10000 := rfl
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 128 ≤ (i 1).val ∧ (i 1).val < win0_2.index t (1 : Fin 2) * 128 + 128; rw [e1]; omega

/-- THE FIRST LAUNCH'S OUTPUT: the matrix product of the arrays it found at `x` and `W1`. -/
theorem final0 (c : Dev nD) : (dat0 V c).arrAt 2 cfg0.N = dense (V c main_arg0) (V c main_arg2) :=
  (dat0 V c).arrAt_eq_of_cover 2 (dense (V c main_arg0) (V c main_arg2)) (fun t _ => flushed0_eq V c t) cover0

end Cert.KernelIdeal.Whole

end
-- ==== Proof.Region1.lean ====
/-
  The second launch: every block of 10000 rows of the first aggregation gets the bias row added and is floored at zero, then
  multiplied by the whole of `W2`; the five blocks of the result tile the `[50000, 40]` output.  So after the launch that array
  is `relu (agg + b1) · W2` of the arrays the launch found, entry by entry.
-/
import proofs.«158632_j30485677867756_2_alg».proof.Proof.Gen.KernelIdeal.Frame
import proofs.«158632_j30485677867756_2_alg».proof.Proof.LibGcnStages
import Idealize.ShloMosaic.Lib.Pipeline.Value

set_option maxRecDepth 16384

noncomputable section

namespace Cert.KernelIdeal.Whole

open Cert.KernelIdeal Cert.KernelIdeal.Gen Cert.LibGcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets1 : (![0, 0] : Fin 2 → Nat) = fun _ => 0 := funext fun a => by fin_cases a <;> rfl

theorem reluDenseRow_ix2 {R H O : ℕ} (a : Mat R H) (b : Mat 1 H) (w : Mat H O) (p : Fin R) (q : Fin O) :
    reluDenseRow a b w (ix2 p q) = ∑ k : Fin H, max (a (ix2 p k) + b (ix2 (0 : Fin 1) k)) zeroWord * w (ix2 k q) := rfl

/-- The body's stored value at an entry: row `p` of the block plus the bias row, floored at zero, times column `q` of `W2`. -/
theorem pay1_apply (x0 : Vec Ideal S10000x128 .f32) (x1 : Vec Ideal S1x128 .f32) (x2 : Vec Ideal S128x40 .f32) (p : Fin 10000) (q : Fin 40) :
    k1_pay1 x0 x1 x2 (ix2 p q) = ∑ k : Fin 128, max (x0 (ix2 p k) + x1 (ix2 (0 : Fin 1) k)) zeroWord * x2 (ix2 k q) :=
  (kernel_reluDense_apply dot_S10000x128_S128x40_S10000x40_1_0_0_1_n_n rfl x0 x1 x2 shapeCasts_S10000x128_S10000x128
    shapeCasts_S1x128_S1x128 broadcasts_S1x128_S10000x128 bitsLt_bf16_f32 p q).trans (reluDenseRow_ix2 x0 x1 x2 p q)

/-- Where the four windows' blocks sit at grid point `t`: the row blocks of the aggregation and of the output at block row
    `t`, the bias row and `W2` whole. -/
theorem block_rows1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregation's block at point `t` is row `10000 t + p` of the aggregation. -/
theorem ablock1_apply (c : Dev nD) (t : Fin cfg1.N) (y : S10000x128.Idx) (i : S50000x128.Idx)
    (h0 : (i 0).val = t.val * 10000 + (y 0).val) (h1 : (i 1).val = (y 1).val) :
    (iblk1 V c 0 t : Vec Ideal S10000x128 .f32) y = (V c main_v15 : S50000x128.Idx → Ideal .f32) i := by
  obtain ⟨e0, e1, -⟩ := block_rows1 t
  unfold iblk1
  rw [View.read_apply]
  show V c main_v15 _ = V c main_v15 _
  refine congrArg _ (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The block of the bias row at any point is the bias row. -/
theorem bblock1_apply (c : Dev nD) (t : Fin cfg1.N) (y : S1x128.Idx) :
    (iblk1 V c 1 t : Vec Ideal S1x128 .f32) y = (V c main_v16 : S1x128.Idx → Ideal .f32) y := by
  obtain ⟨-, -, e0, e1, -⟩ := block_rows1 t
  unfold iblk1
  rw [View.read_apply]
  show V c main_v16 _ = V c main_v16 _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The block of `W2` at any point is `W2`. -/
theorem wblock1_apply (c : Dev nD) (t : Fin cfg1.N) (y : S128x40.Idx) :
    (iblk1 V c 2 t : Vec Ideal S128x40 .f32) y = (V c main_arg4 : S128x40.Idx → Ideal .f32) y := by
  obtain ⟨-, -, -, -, e0, e1, -⟩ := block_rows1 t
  unfold iblk1
  rw [View.read_apply]
  show V c main_arg4 _ = V c main_arg4 _
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 40 + 1 * (y 1).val = (y 1).val; rw [e1]; omega

/-- What point `t` writes back is block `t` of `relu (agg + b1) · W2`. -/
theorem flushed1_eq (c : Dev nD) (t : Fin cfg1.N) :
    (dat1 V c).flushed 3 t = ((cfg1.win 3).blk t).view.read (Elt Ideal) (reluDenseRow (V c main_v15) (V c main_v16) (V c main_arg4)) := by
  show (cfg1.win 3).cut (grid1.coords t) ((dat1 V c).after 3 t) = _
  rw [after1_3]
  unfold out1_3
  rw [View.canon_unit_zero zero_offsets1]
  simp only [View.ld_unit_zero (S := S10000x128) zero_offsets1, View.ld_unit_zero (S := S1x128) zero_offsets1,
    View.ld_unit_zero (S := S128x40) zero_offsets1]
  obtain ⟨-, -, -, -, -, -, e0, e1⟩ := block_rows1 t
  funext y
  obtain ⟨p, q, rfl⟩ : ∃ (p : Fin 10000) (q : Fin 40), y = ix2 p q := ⟨y 0, y 1, eq_ix2 y⟩
  have hN : cfg1.N = 5 := N_1
  have ht : t.val < 5 := hN ▸ t.isLt
  have hrow : t.val * 10000 + p.val < 50000 := by have := p.isLt; omega
  show k1_pay1 (iblk1 V c 0 t) (iblk1 V c 1 t) (iblk1 V c 2 t) (ix2 p q)
    = reluDenseRow (V c main_v15) (V c main_v16) (V c main_arg4) (((cfg1.win 3).blk t).view.emb (ix2 p q))
  have hemb : ((cfg1.win 3).blk t).view.emb (ix2 p q) = (ix2 (⟨t.val * 10000 + p.val, hrow⟩ : Fin 50000) q : S50000x40.Idx) := by
    funext a; apply Fin.ext
    match a with
    | ⟨0, _⟩ => show win1_3.index t (0 : Fin 2) * 10000 + 1 * p.val = t.val * 10000 + p.val; rw [e0]; omega
    | ⟨1, _⟩ => show win1_3.index t (1 : Fin 2) * 40 + 1 * q.val = q.val; rw [e1]; omega
  rw [hemb, pay1_apply, reluDenseRow_ix2]
  refine Finset.sum_congr rfl fun k _ => ?_
  rw [ablock1_apply V c t (ix2 p k) (ix2 (⟨t.val * 10000 + p.val, hrow⟩ : Fin 50000) k) rfl rfl,
    bblock1_apply V c t (ix2 (0 : Fin 1) k), wblock1_apply V c t (ix2 k q)]

/-- An index of the output array is in point `t`'s block iff each coordinate is in the block's range on its axis. -/
theorem mem_blk1 (t : Fin cfg1.N) (i : S50000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v17).slice (win1_3.rect t)).set ↔ _
  rw [View.set_slice_whole, Rect.mem_set_unit]
  exact Iff.rfl

/-- The five row blocks cover the output: row `r` is in block `r / 10000`. -/
theorem cover1 (i : S50000x40.Idx) : ∃ t : Fin cfg1.N, (cfg1.win 3).flush t = true ∧ i ∈ ((cfg1.win 3).blk t).view.set := by
  have hN : cfg1.N = 5 := N_1
  have hi0 : (i 0).val < 50000 := (i 0).isLt
  have hi1 : (i 1).val < 40 := (i 1).isLt
  let t : Fin cfg1.N := ⟨(i 0).val / 10000, by rw [hN]; omega⟩
  obtain ⟨-, -, -, -, -, -, e0, e1⟩ := block_rows1 t
  refine ⟨t, flush1_3 t, ?_⟩
  rw [mem_blk1]
  intro a
  have ht : t.val = (i 0).val / 10000 := rfl
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 40 ≤ (i 1).val ∧ (i 1).val < win1_3.index t (1 : Fin 2) * 40 + 40; rw [e1]; omega

/-- THE SECOND LAUNCH'S OUTPUT: `relu (agg + b1) · W2` of the arrays it found. -/
theorem final1 (c : Dev nD) : (dat1 V c).arrAt 3 cfg1.N = reluDenseRow (V c main_v15) (V c main_v16) (V c main_arg4) :=
  (dat1 V c).arrAt_eq_of_cover 3 (reluDenseRow (V c main_v15) (V c main_v16) (V c main_arg4)) (fun t _ => flushed1_eq V c t) cover1

end Cert.KernelIdeal.Whole

end
-- ==== Proof.Region2.lean ====
/-
  The third launch: every block of 10000 rows of the second aggregation gets the bias row added, and along each row every
  entry has the row's maximum and then the logarithm of the sum of the exponentials of those differences subtracted; the five
  blocks of the result tile the `[50000, 40]` output.  A row's maximum and sum read only that row, so after the launch the array
  is the log-softmax along the rows of `agg + b2` of the arrays the launch found, entry by entry.
-/
import proofs.«158632_j30485677867756_2_alg».proof.Proof.Gen.KernelIdeal.Frame
import proofs.«158632_j30485677867756_2_alg».proof.Proof.LibGcnStages
import Idealize.ShloMosaic.Lib.Pipeline.Value

set_option maxRecDepth 16384

noncomputable section

namespace Cert.KernelIdeal.Whole

open Cert.KernelIdeal Cert.KernelIdeal.Gen Cert.LibGcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets2 : (![0, 0] : Fin 2 → Nat) = fun _ => 0 := funext fun a => by fin_cases a <;> rfl

theorem biasLogSoftmaxRow_ix2 {R C : ℕ} (a : Mat R C) (b : Mat 1 C) (p : Fin R) (q : Fin C) :
    biasLogSoftmaxRow a b (ix2 p q) = logSoftmaxRow (fun k => a (ix2 p k) + b (ix2 (0 : Fin 1) k)) q := rfl

/-- The body's stored value at an entry: the log-softmax of row `p` of the block plus the bias row, at lane `q`. -/
theorem pay2_apply (x0 : Vec Ideal S10000x40 .f32) (x1 : Vec Ideal S1x40 .f32) (p : Fin 10000) (q : Fin 40) :
    k2_pay1 x0 x1 (ix2 p q) = logSoftmaxRow (fun k => x0 (ix2 p k) + x1 (ix2 (0 : Fin 1) k)) q :=
  (kernel_biasLogSoftmax_apply x0 x1 shapeCasts_S10000x40_S10000x40 shapeCasts_S1x40_S1x40 broadcasts_S1x40_S10000x40
    reduces_S10000x40_S10000 (.inl rfl) rfl rfl shapeCasts_S10000_S10000x1 broadcasts_S10000x1_S10000x40 p q).trans
    (biasLogSoftmaxRow_ix2 x0 x1 p q)

/-- Where the three windows' blocks sit at grid point `t`: the row blocks of the aggregation and of the output at block row
    `t`, the bias row whole. -/
theorem block_rows2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the aggregation's block at point `t` is row `10000 t + p` of the aggregation. -/
theorem ablock2_apply (c : Dev nD) (t : Fin cfg2.N) (y : S10000x40.Idx) (i : S50000x40.Idx)
    (h0 : (i 0).val = t.val * 10000 + (y 0).val) (h1 : (i 1).val = (y 1).val) :
    (iblk2 V c 0 t : Vec Ideal S10000x40 .f32) y = (V c main_v28 : S50000x40.Idx → Ideal .f32) i := by
  obtain ⟨e0, e1, -⟩ := block_rows2 t
  unfold iblk2
  rw [View.read_apply]
  show V c main_v28 _ = V c main_v28 _
  refine congrArg _ (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 40 + 1 * (y 1).val = (i 1).val; rw [e1, h1]; omega

/-- The block of the bias row at any point is the bias row. -/
theorem bblock2_apply (c : Dev nD) (t : Fin cfg2.N) (y : S1x40.Idx) :
    (iblk2 V c 1 t : Vec Ideal S1x40 .f32) y = (V c main_v29 : S1x40.Idx → Ideal .f32) y := by
  obtain ⟨-, -, e0, e1, -⟩ := block_rows2 t
  unfold iblk2
  rw [View.read_apply]
  show V c main_v29 _ = V c main_v29 _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 40 + 1 * (y 1).val = (y 1).val; rw [e1]; omega

/-- What point `t` writes back is block `t` of the log-softmax along the rows of `agg + b2`. -/
theorem flushed2_eq (c : Dev nD) (t : Fin cfg2.N) :
    (dat2 V c).flushed 2 t = ((cfg2.win 2).blk t).view.read (Elt Ideal) (biasLogSoftmaxRow (V c main_v28) (V c main_v29)) := by
  show (cfg2.win 2).cut (grid2.coords t) ((dat2 V c).after 2 t) = _
  rw [after2_2]
  unfold out2_2
  rw [View.canon_unit_zero zero_offsets2]
  simp only [View.ld_unit_zero (S := S10000x40) zero_offsets2, View.ld_unit_zero (S := S1x40) zero_offsets2]
  obtain ⟨-, -, -, -, e0, e1⟩ := block_rows2 t
  funext y
  obtain ⟨p, q, rfl⟩ : ∃ (p : Fin 10000) (q : Fin 40), y = ix2 p q := ⟨y 0, y 1, eq_ix2 y⟩
  have hN : cfg2.N = 5 := N_2
  have ht : t.val < 5 := hN ▸ t.isLt
  have hrow : t.val * 10000 + p.val < 50000 := by have := p.isLt; omega
  show k2_pay1 (iblk2 V c 0 t) (iblk2 V c 1 t) (ix2 p q)
    = biasLogSoftmaxRow (V c main_v28) (V c main_v29) (((cfg2.win 2).blk t).view.emb (ix2 p q))
  have hemb : ((cfg2.win 2).blk t).view.emb (ix2 p q) = (ix2 (⟨t.val * 10000 + p.val, hrow⟩ : Fin 50000) q : S50000x40.Idx) := by
    funext a; apply Fin.ext
    match a with
    | ⟨0, _⟩ => show win2_2.index t (0 : Fin 2) * 10000 + 1 * p.val = t.val * 10000 + p.val; rw [e0]; omega
    | ⟨1, _⟩ => show win2_2.index t (1 : Fin 2) * 40 + 1 * q.val = q.val; rw [e1]; omega
  rw [hemb, pay2_apply, biasLogSoftmaxRow_ix2]
  refine congrArg (fun row : Fin 40 → EReal => logSoftmaxRow row q) (funext fun k => ?_)
  rw [ablock2_apply V c t (ix2 p k) (ix2 (⟨t.val * 10000 + p.val, hrow⟩ : Fin 50000) k) rfl rfl,
    bblock2_apply V c t (ix2 (0 : Fin 1) k)]

/-- An index of the output array is in point `t`'s block iff each coordinate is in the block's range on its axis. -/
theorem mem_blk2 (t : Fin cfg2.N) (i : S50000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v30).slice (win2_2.rect t)).set ↔ _
  rw [View.set_slice_whole, Rect.mem_set_unit]
  exact Iff.rfl

/-- The five row blocks cover the output: row `r` is in block `r / 10000`. -/
theorem cover2 (i : S50000x40.Idx) : ∃ t : Fin cfg2.N, (cfg2.win 2).flush t = true ∧ i ∈ ((cfg2.win 2).blk t).view.set := by
  have hN : cfg2.N = 5 := N_2
  have hi0 : (i 0).val < 50000 := (i 0).isLt
  have hi1 : (i 1).val < 40 := (i 1).isLt
  let t : Fin cfg2.N := ⟨(i 0).val / 10000, by rw [hN]; omega⟩
  obtain ⟨-, -, -, -, e0, e1⟩ := block_rows2 t
  refine ⟨t, flush2_2 t, ?_⟩
  rw [mem_blk2]
  intro a
  have ht : t.val = (i 0).val / 10000 := rfl
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 40 ≤ (i 1).val ∧ (i 1).val < win2_2.index t (1 : Fin 2) * 40 + 40; rw [e1]; omega

/-- THE THIRD LAUNCH'S OUTPUT: the log-softmax along the rows of `agg + b2` of the arrays it found. -/
theorem final2 (c : Dev nD) : (dat2 V c).arrAt 2 cfg2.N = biasLogSoftmaxRow (V c main_v28) (V c main_v29) :=
  (dat2 V c).arrAt_eq_of_cover 2 (biasLogSoftmaxRow (V c main_v28) (V c main_v29)) (fun t _ => flushed2_eq V c t) cover2

end Cert.KernelIdeal.Whole

end
-- ==== Proof.Spec.lean ====
/-
  The network both programs compute, as one function of the argument arrays: a two-layer graph convolution without
  normalization, a ReLU between the layers, and a log-softmax along the classes.  A layer multiplies the node features by its
  weights, gathers the product's row at each edge's source, adds the gathered rows into each edge's target (every node starts
  from zero), and adds the bias.  The gathers and the scatter-adds are parameters here: each program supplies its own host
  operations for them, and the two programs' are the same functions.
-/
import proofs.«158632_j30485677867756_2_alg».proof.Proof.LibGcnStages

noncomputable section

namespace Cert.Gcn

open Cert.LibGcn

/-- `log_softmax (S₂ (G₂ (relu (S₁ (G₁ (x · W1)) + b1) · W2)) + b2)`, with `Gᵢ` the gathers along the edges' sources and `Sᵢ` the
    scatter-adds along their targets. -/
def net (ga1 : Mat 50000 128 → Mat 800000 128) (sc1 : Mat 800000 128 → Mat 50000 128)
    (ga2 : Mat 50000 40 → Mat 800000 40) (sc2 : Mat 800000 40 → Mat 50000 40)
    (x : Mat 50000 128) (w1 : Mat 128 128) (b1 : Row 128) (w2 : Mat 128 40) (b2 : Row 40) : Mat 50000 40 :=
  biasLogSoftmax (sc2 (ga2 (reluDense (sc1 (ga1 (dense x w1))) b1 w2))) b2

end Cert.Gcn

end
-- ==== Proof.KernelHost.lean ====
/-
  The idealized kernel's result as one function of its arguments.  Between the three launches the host slices the edge list
  into sources and targets, wraps negative source indices, gathers rows of the previous launch's output at the sources
  (widening them from bfloat16, the identity on the extended reals), adds them into the targets' rows from zero, and lays each
  bias out as one row.  Reading the buffers' contents boundary by boundary — a host stretch writes its results and leaves every
  other buffer alone, a launch writes its output array and leaves every other buffer alone — the result array ends at the
  network of Spec.lean over the arguments as launched.
-/
import proofs.«158632_j30485677867756_2_alg».proof.Proof.Gen.KernelIdeal.Frame
import proofs.«158632_j30485677867756_2_alg».proof.Proof.Region0
import proofs.«158632_j30485677867756_2_alg».proof.Proof.Region1
import proofs.«158632_j30485677867756_2_alg».proof.Proof.Region2
import proofs.«158632_j30485677867756_2_alg».proof.Proof.Spec
import Idealize.ShloMosaic.Lib.StableHlo.Run

set_option maxRecDepth 16384

noncomputable section

namespace Cert.KernelIdeal.Whole

open Cert.KernelIdeal Cert.KernelIdeal.Gen Cert.LibGcn
open Idealize.ShloMosaic Idealize.ShloMosaic.TcCoe Idealize.ShloMosaic.ValueIdx Idealize.SL.Sem Idealize.ShloMosaic.StableHlo

/-! ## The host's index arrays, gathers and scatter-adds -/

/-- The edges' sources: row 0 of the edge list. -/
def srcOf (e : IVec S2x800000 32) : IVec S800000 32 :=
  shapeCast S800000 (extractStridedSlice S1x800000 ![0, 0] e slices_S2x800000_S1x800000_0_0) shapeCasts_S1x800000_S800000
/-- The edges' targets: row 1 of the edge list. -/
def dstOf (e : IVec S2x800000 32) : IVec S800000 32 :=
  shapeCast S800000 (extractStridedSlice S1x800000 ![1, 0] e slices_S2x800000_S1x800000_1_0) shapeCasts_S1x800000_S800000
/-- The sources as a column of start indices, a negative one moved up by the node count. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The targets as a column of scatter indices. -/
def col (d : IVec S800000 32) : IVec S800000x1 32 := broadcastInDim S800000x1 ![0] bcast_S800000_S800000x1_0 d

/-- The hidden features' rows at the edges' sources. -/
def gather128 (s : IVec S800000 32) (h : Mat 50000 128) : Mat 800000 128 :=
  Host.gather gather_S50000x128_S800000x1_S800000x128_1_0_n_n_0_1_1128 h (wrapCol s)
/-- The edges' rows added into their targets' rows, from zero. -/
def scatter128 (d : IVec S800000 32) (u : Mat 800000 128) : Mat 50000 128 :=
  Host.scatterAdd (F := Ideal) (φ := .f32) scatter_S50000x128_S800000x1_S800000x128_1_0_0_1
    (broadcastInDim S50000x128 ![] bcast_S_S50000x128 (constant (F := Ideal) S_ .f32 0x00000000#32)) (col d) u
/-- The class scores' rows at the edges' sources. -/
def gather40 (s : IVec S800000 32) (h : Mat 50000 40) : Mat 800000 40 :=
  Host.gather gather_S50000x40_S800000x1_S800000x40_1_0_n_n_0_1_140 h (wrapCol s)
/-- The edges' rows added into their targets' rows, from zero. -/
def scatter40 (d : IVec S800000 32) (u : Mat 800000 40) : Mat 50000 40 :=
  Host.scatterAdd (F := Ideal) (φ := .f32) scatter_S50000x40_S800000x1_S800000x40_1_0_0_1
    (broadcastInDim S50000x40 ![] bcast_S_S50000x40 (constant (F := Ideal) S_ .f32 0x00000000#32)) (col d) u

/-! ## The host stretches, from any contents `W` -/

variable (W : Valuation τ sig (Elt Ideal))

theorem host0_v1 : (after (hostOps0 (F := Ideal)) W (Proc.devRef .tc main_v1) : S800000.Idx → BitVec 32)
    = srcOf (W (Proc.devRef .tc main_arg1)) := by
  after_results; rfl
theorem host0_v3 : (after (hostOps0 (F := Ideal)) W (Proc.devRef .tc main_v3) : S800000.Idx → BitVec 32)
    = dstOf (W (Proc.devRef .tc main_arg1)) := by
  after_results; rfl
theorem host0_arg0 : after (hostOps0 (F := Ideal)) W (Proc.devRef .tc main_arg0) = W (Proc.devRef .tc main_arg0) := by after_results
theorem host0_arg2 : after (hostOps0 (F := Ideal)) W (Proc.devRef .tc main_arg2) = W (Proc.devRef .tc main_arg2) := by after_results
theorem host0_arg3 : after (hostOps0 (F := Ideal)) W (Proc.devRef .tc main_arg3) = W (Proc.devRef .tc main_arg3) := by after_results
theorem host0_arg4 : after (hostOps0 (F := Ideal)) W (Proc.devRef .tc main_arg4) = W (Proc.devRef .tc main_arg4) := by after_results
theorem host0_arg5 : after (hostOps0 (F := Ideal)) W (Proc.devRef .tc main_arg5) = W (Proc.devRef .tc main_arg5) := by after_results

theorem host1_v15 : (after (hostOps1 (F := Ideal)) W (Proc.devRef .tc main_v15) : S50000x128.Idx → EReal)
    = scatter128 (W (Proc.devRef .tc main_v3)) (gather128 (W (Proc.devRef .tc main_v1)) (W (Proc.devRef .tc main_v4))) := by
  after_results; rfl
theorem host1_v16 : (after (hostOps1 (F := Ideal)) W (Proc.devRef .tc main_v16) : S1x128.Idx → EReal)
    = shapeCast S1x128 (W (Proc.devRef .tc main_arg3) : S128.Idx → EReal) shapeCasts_S128_S1x128 := by
  after_results; rfl
theorem host1_v1 : after (hostOps1 (F := Ideal)) W (Proc.devRef .tc main_v1) = W (Proc.devRef .tc main_v1) := by after_results
theorem host1_v3 : after (hostOps1 (F := Ideal)) W (Proc.devRef .tc main_v3) = W (Proc.devRef .tc main_v3) := by after_results
theorem host1_arg4 : after (hostOps1 (F := Ideal)) W (Proc.devRef .tc main_arg4) = W (Proc.devRef .tc main_arg4) := by after_results
theorem host1_arg5 : after (hostOps1 (F := Ideal)) W (Proc.devRef .tc main_arg5) = W (Proc.devRef .tc main_arg5) := by after_results

theorem host2_v28 : (after (hostOps2 (F := Ideal)) W (Proc.devRef .tc main_v28) : S50000x40.Idx → EReal)
    = scatter40 (W (Proc.devRef .tc main_v3)) (gather40 (W (Proc.devRef .tc main_v1)) (W (Proc.devRef .tc main_v17))) := by
  after_results; rfl
theorem host2_v29 : (after (hostOps2 (F := Ideal)) W (Proc.devRef .tc main_v29) : S1x40.Idx → EReal)
    = shapeCast S1x40 (W (Proc.devRef .tc main_arg5) : S40.Idx → EReal) shapeCasts_S40_S1x40 := by
  after_results; rfl

end Cert.KernelIdeal.Whole

end
-- ==== Proof.KernelRun.lean ====
/-
  The idealized kernel's whole run with its result named.  The program is three kernel launches among stretches of host
  operations; its buffers' contents at each boundary are a fold from the launch memory, and after the last launch the
  result buffer holds what that fold gives it.  Stated here: every weakly fair execution terminates, nothing faulting, with
  the result buffer at the last boundary's contents and the six argument arrays unchanged.
-/
import proofs.«158632_j30485677867756_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three launches and the host stretches between them, with the result buffer read off the last
    boundary's contents. -/
theorem run_main : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.KernelValue.lean ====
/-
  The idealized kernel's result array, boundary by boundary, as the network of Spec.lean over the arguments as launched.
-/
import proofs.«158632_j30485677867756_2_alg».proof.Proof.KernelHost
import proofs.«158632_j30485677867756_2_alg».proof.Proof.KernelRun

set_option maxRecDepth 16384

noncomputable section

namespace Cert.KernelIdeal.Whole

open Cert.KernelIdeal Cert.KernelIdeal.Gen Cert.LibGcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Entering the first launch: the edge list's rows are read, the arguments untouched -/

theorem at1_v1 : (W1 m ρ c (Proc.devRef .tc main_v1) : S800000.Idx → BitVec 32) = srcOf (m ((c.tc : Thread nD τ).loc main_arg1)) :=
  host0_v1 (W0 m ρ c)
theorem at1_v3 : (W1 m ρ c (Proc.devRef .tc main_v3) : S800000.Idx → BitVec 32) = dstOf (m ((c.tc : Thread nD τ).loc main_arg1)) :=
  host0_v3 (W0 m ρ c)
theorem at1_arg0 : W1 m ρ c (Proc.devRef .tc main_arg0) = m ((c.tc : Thread nD τ).loc main_arg0) := host0_arg0 (W0 m ρ c)
theorem at1_arg2 : W1 m ρ c (Proc.devRef .tc main_arg2) = m ((c.tc : Thread nD τ).loc main_arg2) := host0_arg2 (W0 m ρ c)
theorem at1_arg3 : W1 m ρ c (Proc.devRef .tc main_arg3) = m ((c.tc : Thread nD τ).loc main_arg3) := host0_arg3 (W0 m ρ c)
theorem at1_arg4 : W1 m ρ c (Proc.devRef .tc main_arg4) = m ((c.tc : Thread nD τ).loc main_arg4) := host0_arg4 (W0 m ρ c)
theorem at1_arg5 : W1 m ρ c (Proc.devRef .tc main_arg5) = m ((c.tc : Thread nD τ).loc main_arg5) := host0_arg5 (W0 m ρ c)

/-! ## Leaving the first launch: its output is `x · W1`, every other buffer as entered -/

theorem at2_v4 : (W2 m ρ c (Proc.devRef .tc main_v4) : S50000x128.Idx → EReal)
    = dense (m ((c.tc : Thread nD τ).loc main_arg0)) (m ((c.tc : Thread nD τ).loc main_arg2)) :=
  (W2_arr m ρ c 2).trans ((final0 (V1 m ρ) c).trans (congrArg₂ dense (at1_arg0 m ρ c) (at1_arg2 m ρ c)))
theorem at2_v1 : (W2 m ρ c (Proc.devRef .tc main_v1) : S800000.Idx → BitVec 32) = srcOf (m ((c.tc : Thread nD τ).loc main_arg1)) :=
  (W2_of_ne m ρ c main_v1 (by decide)).trans (at1_v1 m ρ c)
theorem at2_v3 : (W2 m ρ c (Proc.devRef .tc main_v3) : S800000.Idx → BitVec 32) = dstOf (m ((c.tc : Thread nD τ).loc main_arg1)) :=
  (W2_of_ne m ρ c main_v3 (by decide)).trans (at1_v3 m ρ c)
theorem at2_arg3 : W2 m ρ c (Proc.devRef .tc main_arg3) = m ((c.tc : Thread nD τ).loc main_arg3) :=
  (W2_of_ne m ρ c main_arg3 (by decide)).trans (at1_arg3 m ρ c)
theorem at2_arg4 : W2 m ρ c (Proc.devRef .tc main_arg4) = m ((c.tc : Thread nD τ).loc main_arg4) :=
  (W2_of_ne m ρ c main_arg4 (by decide)).trans (at1_arg4 m ρ c)
theorem at2_arg5 : W2 m ρ c (Proc.devRef .tc main_arg5) = m ((c.tc : Thread nD τ).loc main_arg5) :=
  (W2_of_ne m ρ c main_arg5 (by decide)).trans (at1_arg5 m ρ c)

/-! ## Entering the second launch: the first aggregation and the first bias as one row -/

/-- The first aggregation: the rows of `x · W1` at the edges' sources, added into the edges' targets. -/
abbrev agg1 : Mat 50000 128 :=
  scatter128 (dstOf (m ((c.tc : Thread nD τ).loc main_arg1)))
    (gather128 (srcOf (m ((c.tc : Thread nD τ).loc main_arg1))) (dense (m ((c.tc : Thread nD τ).loc main_arg0)) (m ((c.tc : Thread nD τ).loc main_arg2))))

theorem at3_v15 : (W3 m ρ c (Proc.devRef .tc main_v15) : S50000x128.Idx → EReal) = agg1 m c := by
  refine (host1_v15 (W2 m ρ c)).trans ?_
  rw [at2_v1 m ρ c, at2_v3 m ρ c, at2_v4 m ρ c]
theorem at3_v16 : (W3 m ρ c (Proc.devRef .tc main_v16) : S1x128.Idx → EReal)
    = shapeCast S1x128 (m ((c.tc : Thread nD τ).loc main_arg3) : S128.Idx → EReal) shapeCasts_S128_S1x128 := by
  refine (host1_v16 (W2 m ρ c)).trans ?_
  rw [at2_arg3 m ρ c]
theorem at3_arg4 : W3 m ρ c (Proc.devRef .tc main_arg4) = m ((c.tc : Thread nD τ).loc main_arg4) :=
  (host1_arg4 (W2 m ρ c)).trans (at2_arg4 m ρ c)
theorem at3_arg5 : W3 m ρ c (Proc.devRef .tc main_arg5) = m ((c.tc : Thread nD τ).loc main_arg5) :=
  (host1_arg5 (W2 m ρ c)).trans (at2_arg5 m ρ c)
theorem at3_v1 : (W3 m ρ c (Proc.devRef .tc main_v1) : S800000.Idx → BitVec 32) = srcOf (m ((c.tc : Thread nD τ).loc main_arg1)) :=
  (host1_v1 (W2 m ρ c)).trans (at2_v1 m ρ c)
theorem at3_v3 : (W3 m ρ c (Proc.devRef .tc main_v3) : S800000.Idx → BitVec 32) = dstOf (m ((c.tc : Thread nD τ).loc main_arg1)) :=
  (host1_v3 (W2 m ρ c)).trans (at2_v3 m ρ c)

/-! ## Leaving the second launch: its output is `relu (agg1 + b1) · W2` -/

/-- The class scores before the second aggregation. -/
abbrev scores : Mat 50000 40 :=
  reluDense (agg1 m c) (m ((c.tc : Thread nD τ).loc main_arg3)) (m ((c.tc : Thread nD τ).loc main_arg4))

theorem at4_v17 : (W4 m ρ c (Proc.devRef .tc main_v17) : S50000x40.Idx → EReal) = scores m c := by
  refine (W4_arr m ρ c 3).trans ((final1 (V3 m ρ) c).trans ?_)
  show reluDenseRow (W3 m ρ c (Proc.devRef .tc main_v15)) (W3 m ρ c (Proc.devRef .tc main_v16)) (W3 m ρ c (Proc.devRef .tc main_arg4)) = _
  rw [at3_v15 m ρ c, at3_v16 m ρ c, at3_arg4 m ρ c]
  exact reluDenseRow_cast _ _ _ _
theorem at4_v1 : (W4 m ρ c (Proc.devRef .tc main_v1) : S800000.Idx → BitVec 32) = srcOf (m ((c.tc : Thread nD τ).loc main_arg1)) :=
  (W4_of_ne m ρ c main_v1 (by decide)).trans (at3_v1 m ρ c)
theorem at4_v3 : (W4 m ρ c (Proc.devRef .tc main_v3) : S800000.Idx → BitVec 32) = dstOf (m ((c.tc : Thread nD τ).loc main_arg1)) :=
  (W4_of_ne m ρ c main_v3 (by decide)).trans (at3_v3 m ρ c)
theorem at4_arg5 : W4 m ρ c (Proc.devRef .tc main_arg5) = m ((c.tc : Thread nD τ).loc main_arg5) :=
  (W4_of_ne m ρ c main_arg5 (by decide)).trans (at3_arg5 m ρ c)

/-! ## Entering the third launch: the second aggregation and the second bias as one row -/

/-- The second aggregation: the rows of the class scores at the edges' sources, added into the edges' targets. -/
abbrev agg2 : Mat 50000 40 :=
  scatter40 (dstOf (m ((c.tc : Thread nD τ).loc main_arg1))) (gather40 (srcOf (m ((c.tc : Thread nD τ).loc main_arg1))) (scores m c))

theorem at5_v28 : (W5 m ρ c (Proc.devRef .tc main_v28) : S50000x40.Idx → EReal) = agg2 m c := by
  refine (host2_v28 (W4 m ρ c)).trans ?_
  rw [at4_v1 m ρ c, at4_v3 m ρ c, at4_v17 m ρ c]
theorem at5_v29 : (W5 m ρ c (Proc.devRef .tc main_v29) : S1x40.Idx → EReal)
    = shapeCast S1x40 (m ((c.tc : Thread nD τ).loc main_arg5) : S40.Idx → EReal) shapeCasts_S40_S1x40 := by
  refine (host2_v29 (W4 m ρ c)).trans ?_
  rw [at4_arg5 m ρ c]

/-! ## Leaving the third launch: the result -/

/-- THE RESULT ARRAY after the run: the network over the arguments as launched. -/
theorem result_value : (W6 m ρ c (Proc.devRef .tc main_v30) : S50000x40.Idx → EReal)
    = Cert.Gcn.net (gather128 (srcOf (m ((c.tc : Thread nD τ).loc main_arg1)))) (scatter128 (dstOf (m ((c.tc : Thread nD τ).loc main_arg1))))
        (gather40 (srcOf (m ((c.tc : Thread nD τ).loc main_arg1)))) (scatter40 (dstOf (m ((c.tc : Thread nD τ).loc main_arg1))))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  refine (W6_arr m ρ c 2).trans ((final2 (V5 m ρ) c).trans ?_)
  show biasLogSoftmaxRow (W5 m ρ c (Proc.devRef .tc main_v28)) (W5 m ρ c (Proc.devRef .tc main_v29)) = _
  rw [at5_v28 m ρ c, at5_v29 m ρ c]
  exact biasLogSoftmaxRow_cast _ _ _

/-- The run of the idealized kernel, read: the result array at the network over the arguments, the arguments unchanged. -/
theorem run : θ_run defs (onTc (τ := τ) (main (F := Ideal))) ⟨m, fun _ => 0, ρ⟩ (fun r => ∀ c : Dev nD,
      r.2.mem ((c.tc : Thread nD τ).loc main_v30)
        = Cert.Gcn.net (gather128 (srcOf (m ((c.tc : Thread nD τ).loc main_arg1)))) (scatter128 (dstOf (m ((c.tc : Thread nD τ).loc main_arg1))))
            (gather40 (srcOf (m ((c.tc : Thread nD τ).loc main_arg1)))) (scatter40 (dstOf (m ((c.tc : Thread nD τ).loc main_arg1))))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_main m ρ)

end Cert.KernelIdeal.Whole

end
-- ==== Proof.RefValue.lean ====
/-
  The idealized reference's result as one function of its arguments.  Its 56 host operations are read in five stretches —
  the edge list's two rows and the first matrix product; the first gather and scatter-add; bias, ReLU and the second matrix
  product; the second gather and scatter-add; bias and log-softmax — each from any contents of the buffers it reads, and the
  result array ends at the network of Spec.lean over the arguments as launched.
-/
import proofs.«158632_j30485677867756_2_alg».proof.Proof.RefRun
import proofs.«158632_j30485677867756_2_alg».proof.Proof.Spec
import Idealize.ShloMosaic.Lib.StableHlo.Run

set_option maxRecDepth 16384

noncomputable section

namespace Cert.ReferenceIdeal.Hand

open Cert.ReferenceIdeal Cert.ReferenceIdeal.Gen Cert.ReferenceIdeal.ValueP Cert.LibGcn
open Idealize.ShloMosaic Idealize.ShloMosaic.TcCoe Idealize.ShloMosaic.ValueIdx Idealize.SL.Sem Idealize.ShloMosaic.StableHlo

/-! ## The host's index arrays, gathers and scatter-adds -/

/-- The edges' sources: row 0 of the edge list. -/
def srcOf (e : IVec S2x800000 32) : IVec S800000 32 :=
  shapeCast S800000 (extractStridedSlice S1x800000 ![0, 0] e slices_S2x800000_S1x800000_0_0) shapeCasts_S1x800000_S800000
/-- The edges' targets: row 1 of the edge list. -/
def dstOf (e : IVec S2x800000 32) : IVec S800000 32 :=
  shapeCast S800000 (extractStridedSlice S1x800000 ![1, 0] e slices_S2x800000_S1x800000_1_0) shapeCasts_S1x800000_S800000
/-- The sources as a column of start indices, a negative one moved up by the node count. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The targets as a column of scatter indices. -/
def col (d : IVec S800000 32) : IVec S800000x1 32 := broadcastInDim S800000x1 ![0] bcast_S800000_S800000x1_0 d

/-- The hidden features' rows at the edges' sources. -/
def gather128 (s : IVec S800000 32) (h : Mat 50000 128) : Mat 800000 128 :=
  Host.gather gather_S50000x128_S800000x1_S800000x128_1_0_n_n_0_1_1128 h (wrapCol s)
/-- The edges' rows added into their targets' rows, from zero. -/
def scatter128 (d : IVec S800000 32) (u : Mat 800000 128) : Mat 50000 128 :=
  Host.scatterAdd (F := Ideal) (φ := .f32) scatter_S50000x128_S800000x1_S800000x128_1_0_0_1
    (broadcastInDim S50000x128 ![] bcast_S_S50000x128 (constant (F := Ideal) S_ .f32 0x00000000#32)) (col d) u
/-- The class scores' rows at the edges' sources. -/
def gather40 (s : IVec S800000 32) (h : Mat 50000 40) : Mat 800000 40 :=
  Host.gather gather_S50000x40_S800000x1_S800000x40_1_0_n_n_0_1_140 h (wrapCol s)
/-- The edges' rows added into their targets' rows, from zero. -/
def scatter40 (d : IVec S800000 32) (u : Mat 800000 40) : Mat 50000 40 :=
  Host.scatterAdd (F := Ideal) (φ := .f32) scatter_S50000x40_S800000x1_S800000x40_1_0_0_1
    (broadcastInDim S50000x40 ![] bcast_S_S50000x40 (constant (F := Ideal) S_ .f32 0x00000000#32)) (col d) u

/-! ## The dense stages as the host spells them -/

/-- `x · W1` as one `dot_general`. -/
def hostDense (x : FVec Ideal S50000x128 .f32) (w : FVec Ideal S128x128 .f32) : FVec Ideal S50000x128 .f32 :=
  Host.dotGeneral (F := Ideal) dot_S50000x128_S128x128_S50000x128_1_0_0_1_n_n none x w
/-- `relu (a + b) · W2`: the bias broadcast in two steps, the floor a broadcast zero, one `dot_general`. -/
def hostReluDense (a : FVec Ideal S50000x128 .f32) (b : FVec Ideal S128 .f32) (w : FVec Ideal S128x40 .f32) : FVec Ideal S50000x40 .f32 :=
  Host.dotGeneral (F := Ideal) dot_S50000x128_S128x40_S50000x40_1_0_0_1_n_n none
    (maximumf (addf a (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))) w
/-- Every row's maximum (taken from `-∞`, and once more against `-∞`), kept as a column and repeated along the lanes. -/
def rowMax (X : FVec Ideal S50000x40 .f32) : FVec Ideal S50000x40 .f32 :=
  broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce (FloatOps.maximumf (F := Ideal) (φ := .f32)) X (constant (F := Ideal) S_ .f32 0xFF800000#32) reducesTo_S50000x40_S50000_d1 h_S_)))
/-- The log-softmax along the rows. -/
def hostLogSoftmax (X : FVec Ideal S50000x40 .f32) : FVec Ideal S50000x40 .f32 :=
  subf (subf X (rowMax X))
    (broadcastInDim S50000x40 ![0, 1] bcast_S50000x1_S50000x40_0_1 (Host.log (broadcastInDim S50000x1 ![0] bcast_S50000_S50000x1_0
      (Host.reduceAdd (Host.exp (subf X (rowMax X))) (constant (F := Ideal) S_ .f32 0x00000000#32) reducesTo_S50000x40_S50000_d1 h_S_))))
/-- `log_softmax (a + b)`: the bias broadcast in two steps. -/
def hostBiasLogSoftmax (a : FVec Ideal S50000x40 .f32) (b : FVec Ideal S40 .f32) : FVec Ideal S50000x40 .f32 :=
  hostLogSoftmax (addf a (broadcastInDim S50000x40 ![0, 1] bcast_S1x40_S50000x40_0_1 (broadcastInDim S1x40 ![1] bcast_S40_S1x40_1 b)))

theorem hostDense_eq (x : FVec Ideal S50000x128 .f32) (w : FVec Ideal S128x128 .f32) : hostDense x w = dense x w := by
  funext i
  obtain ⟨p, q, rfl⟩ : ∃ (p : Fin 50000) (q : Fin 128), i = ix2 p q := ⟨i 0, i 1, eq_ix2 i⟩
  exact host_dense_apply _ rfl x w p q

theorem hostReluDense_eq (a : FVec Ideal S50000x128 .f32) (b : FVec Ideal S128 .f32) (w : FVec Ideal S128x40 .f32) : hostReluDense a b w = reluDense a b w := by
  funext i
  obtain ⟨p, q, rfl⟩ : ∃ (p : Fin 50000) (q : Fin 40), i = ix2 p q := ⟨i 0, i 1, eq_ix2 i⟩
  exact host_reluDense_apply _ rfl a b w _ _ _ p q

theorem hostBiasLogSoftmax_eq (a : FVec Ideal S50000x40 .f32) (b : FVec Ideal S40 .f32) : hostBiasLogSoftmax a b = biasLogSoftmax a b := by
  funext i
  obtain ⟨p, q, rfl⟩ : ∃ (p : Fin 50000) (q : Fin 40), i = ix2 p q := ⟨i 0, i 1, eq_ix2 i⟩
  exact (host_logSoftmax_apply _ reducesTo_S50000x40_S50000_d1 (by decide) h_S_ bcast_S_S50000 bcast_S50000_S50000x1_0
    bcast_S50000x1_S50000x40_0_1 p q).trans (host_biasLogSoftmax_apply a b bcast_S40_S1x40_1 bcast_S1x40_S50000x40_0_1 p q)

/-! ## The five stretches of the operation list -/

abbrev opsA : List (HloOp τ sig (Elt Ideal)) := (ops (F := Ideal)).take 5
abbrev opsB : List (HloOp τ sig (Elt Ideal)) := ((ops (F := Ideal)).drop 5).take 13
abbrev opsC : List (HloOp τ sig (Elt Ideal)) := ((ops (F := Ideal)).drop 18).take 7
abbrev opsD : List (HloOp τ sig (Elt Ideal)) := ((ops (F := Ideal)).drop 25).take 13
abbrev opsE : List (HloOp τ sig (Elt Ideal)) := (ops (F := Ideal)).drop 38

theorem after_append (l1 l2 : List (HloOp τ sig (Elt Ideal))) (V : Valuation τ sig (Elt Ideal)) :
    after (l1 ++ l2) V = after l2 (after l1 V) := by
  induction l1 generalizing V with
  | nil => rfl
  | cons a l ih => exact ih _

theorem ops_split : (ops (F := Ideal)) = opsA ++ (opsB ++ (opsC ++ (opsD ++ opsE))) := rfl

theorem after_ops (V : Valuation τ sig (Elt Ideal)) :
    after (ops (F := Ideal)) V = after opsE (after opsD (after opsC (after opsB (after opsA V)))) := by
  rw [ops_split, after_append, after_append, after_append, after_append]

variable (W : Valuation τ sig (Elt Ideal))

local macro "open_stretch" : tactic =>
  `(tactic| simp only [opsA, opsB, opsC, opsD, opsE, ops, List.take_succ_cons, List.take_zero, List.drop_succ_cons, List.drop_zero])

theorem stretchA_v1 : (after opsA W (Proc.devRef .tc main_v1) : S800000.Idx → BitVec 32) = srcOf (W (Proc.devRef .tc main_arg1)) := by
  open_stretch; after_results; rfl
theorem stretchA_v3 : (after opsA W (Proc.devRef .tc main_v3) : S800000.Idx → BitVec 32) = dstOf (W (Proc.devRef .tc main_arg1)) := by
  open_stretch; after_results; rfl
theorem stretchA_v4 : (after opsA W (Proc.devRef .tc main_v4) : S50000x128.Idx → EReal)
    = hostDense (W (Proc.devRef .tc main_arg0)) (W (Proc.devRef .tc main_arg2)) := by
  open_stretch; after_results; rfl
theorem stretchA_arg3 : after opsA W (Proc.devRef .tc main_arg3) = W (Proc.devRef .tc main_arg3) := by open_stretch; after_results
theorem stretchA_arg4 : after opsA W (Proc.devRef .tc main_arg4) = W (Proc.devRef .tc main_arg4) := by open_stretch; after_results
theorem stretchA_arg5 : after opsA W (Proc.devRef .tc main_arg5) = W (Proc.devRef .tc main_arg5) := by open_stretch; after_results

theorem stretchB_v14 : (after opsB W (Proc.devRef .tc main_v14) : S50000x128.Idx → EReal)
    = scatter128 (W (Proc.devRef .tc main_v3)) (gather128 (W (Proc.devRef .tc main_v1)) (W (Proc.devRef .tc main_v4))) := by
  open_stretch; after_results; rfl
theorem stretchB_v1 : after opsB W (Proc.devRef .tc main_v1) = W (Proc.devRef .tc main_v1) := by open_stretch; after_results
theorem stretchB_v3 : after opsB W (Proc.devRef .tc main_v3) = W (Proc.devRef .tc main_v3) := by open_stretch; after_results
theorem stretchB_arg3 : after opsB W (Proc.devRef .tc main_arg3) = W (Proc.devRef .tc main_arg3) := by open_stretch; after_results
theorem stretchB_arg4 : after opsB W (Proc.devRef .tc main_arg4) = W (Proc.devRef .tc main_arg4) := by open_stretch; after_results
theorem stretchB_arg5 : after opsB W (Proc.devRef .tc main_arg5) = W (Proc.devRef .tc main_arg5) := by open_stretch; after_results

/-- Contents written through a typed reference and read back through it are the contents. -/
theorem ofBuf_toBuf {T : BufTy} (x : TRef sig T) (v : T.Contents (Elt Ideal)) : x.ofBuf (x.toBuf v) = v := by
  obtain ⟨r, h, h1, h2⟩ := x
  subst h
  rfl

theorem stretchC_v19 : (after opsC W (Proc.devRef .tc main_v19) : S50000x40.Idx → EReal)
    = hostReluDense (W (Proc.devRef .tc main_v14)) (W (Proc.devRef .tc main_arg3)) (W (Proc.devRef .tc main_arg4)) := by
  open_stretch; after_results_simp; simp only [ofBuf_toBuf]; rfl
theorem stretchC_v1 : after opsC W (Proc.devRef .tc main_v1) = W (Proc.devRef .tc main_v1) := by open_stretch; after_results_simp
theorem stretchC_v3 : after opsC W (Proc.devRef .tc main_v3) = W (Proc.devRef .tc main_v3) := by open_stretch; after_results_simp
theorem stretchC_arg5 : after opsC W (Proc.devRef .tc main_arg5) = W (Proc.devRef .tc main_arg5) := by open_stretch; after_results_simp

theorem stretchD_v29 : (after opsD W (Proc.devRef .tc main_v29) : S50000x40.Idx → EReal)
    = scatter40 (W (Proc.devRef .tc main_v3)) (gather40 (W (Proc.devRef .tc main_v1)) (W (Proc.devRef .tc main_v19))) := by
  open_stretch; after_results; rfl
theorem stretchD_arg5 : after opsD W (Proc.devRef .tc main_arg5) = W (Proc.devRef .tc main_arg5) := by open_stretch; after_results

theorem stretchE_v33 : (after opsE W (Proc.devRef .tc main_v33) : S50000x40.Idx → EReal)
    = hostBiasLogSoftmax (W (Proc.devRef .tc main_v29)) (W (Proc.devRef .tc main_arg5)) := by
  open_stretch; after_results_simp; simp only [ofBuf_toBuf]; rfl

/-! ## The result -/

variable (m : (ℓ : Loc nD τ sig) → Buf (Elt Ideal) ℓ) (c : Dev nD)

/-- THE RESULT ARRAY after the run: the network over the arguments as launched. -/
theorem result_value : (after (ops (F := Ideal)) (launchContents m c) (Proc.devRef .tc main_v33) : S50000x40.Idx → EReal)
    = Cert.Gcn.net (gather128 (srcOf (m ((c.tc : Thread nD τ).loc main_arg1)))) (scatter128 (dstOf (m ((c.tc : Thread nD τ).loc main_arg1))))
        (gather40 (srcOf (m ((c.tc : Thread nD τ).loc main_arg1)))) (scatter40 (dstOf (m ((c.tc : Thread nD τ).loc main_arg1))))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  rw [after_ops, stretchE_v33, stretchD_v29, stretchD_arg5, stretchC_v19, stretchC_v1, stretchC_v3, stretchC_arg5,
    stretchB_v14, stretchB_v1, stretchB_v3, stretchB_arg3, stretchB_arg4, stretchB_arg5,
    stretchA_v1, stretchA_v3, stretchA_v4, stretchA_arg3, stretchA_arg4, stretchA_arg5,
    hostBiasLogSoftmax_eq, hostReluDense_eq, hostDense_eq]
  rfl

/-- The run of the idealized reference, read: the result array at the network over the arguments, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v33)
        = Cert.Gcn.net (gather128 (srcOf (m ((c.tc : Thread nD τ).loc main_arg1)))) (scatter128 (dstOf (m ((c.tc : Thread nD τ).loc main_arg1))))
            (gather40 (srcOf (m ((c.tc : Thread nD τ).loc main_arg1)))) (scatter40 (dstOf (m ((c.tc : Thread nD τ).loc main_arg1))))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m c), (h c).2⟩) (Cert.ReferenceIdeal.ValueP.run (F := Ideal) m ρ)

end Cert.ReferenceIdeal.Hand

end
-- ==== Proof.lean ====
/-
  Both programs compute a two-layer graph convolution with a log-softmax head: `log_softmax (S (G (relu (S (G (x · W1)) + b1) · W2)) + b2)`,
  where `G` gathers a matrix's rows at the edges' sources and `S` adds the edges' rows into their targets' rows from zero.
  The kernel computes the three dense stages in three launches over blocks of 10000 rows — the matrix products with operands and
  results rounded to bfloat16, which is the identity on the extended reals; the biases laid out as one row; the row maximum and
  the sum of exponentials kept as columns — and leaves the gathers and scatter-adds to the host; the reference computes everything
  on the host, taking each row's maximum once more against `-∞`.  Stage by stage the two are the same sums of the same products,
  the same maxima and the same differences, entry by entry, so no finiteness of the inputs is used; the gathers and scatter-adds
  are the same host operations applied to equal arrays.  The kernel's frames are the generated ones; the reference's frame is its
  run with the result dropped; nothing was rewritten by the idealization, so it preserves trivially.
-/
import proofs.«158632_j30485677867756_2_alg».proof.Defs
import proofs.«158632_j30485677867756_2_alg».proof.Proof.Gen.Kernel
import proofs.«158632_j30485677867756_2_alg».proof.Proof.Gen.Kernel.Frame
import proofs.«158632_j30485677867756_2_alg».proof.Proof.Gen.KernelIdeal
import proofs.«158632_j30485677867756_2_alg».proof.Proof.Gen.KernelIdeal.Frame
import proofs.«158632_j30485677867756_2_alg».proof.Proof.Gen.ReferenceIdeal
import proofs.«158632_j30485677867756_2_alg».proof.Proof.Gen.Pre_finite_inputs
import proofs.«158632_j30485677867756_2_alg».proof.Proof.KernelValue
import proofs.«158632_j30485677867756_2_alg».proof.Proof.RefValue

set_option maxRecDepth 16384

noncomputable section

namespace Cert.Proof

open Idealize.ShloMosaic Idealize.ShloMosaic.TcCoe Idealize.SL.Sem

/-! ## The two programs' host gathers and scatter-adds are the same functions -/

theorem srcOf_eq : Cert.ReferenceIdeal.Hand.srcOf = Cert.KernelIdeal.Whole.srcOf := rfl
theorem dstOf_eq : Cert.ReferenceIdeal.Hand.dstOf = Cert.KernelIdeal.Whole.dstOf := rfl
theorem gather128_eq : Cert.ReferenceIdeal.Hand.gather128 = Cert.KernelIdeal.Whole.gather128 := rfl
theorem scatter128_eq : Cert.ReferenceIdeal.Hand.scatter128 = Cert.KernelIdeal.Whole.scatter128 := rfl
theorem gather40_eq : Cert.ReferenceIdeal.Hand.gather40 = Cert.KernelIdeal.Whole.gather40 := rfl
theorem scatter40_eq : Cert.ReferenceIdeal.Hand.scatter40 = Cert.KernelIdeal.Whole.scatter40 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- From memories agreeing on the arguments both runs end with the result array at the one network of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5⟩ := hagree c
  rw [e0, e1, e2, e3, e4, e5, srcOf_eq, dstOf_eq, gather128_eq, scatter128_eq, gather40_eq, scatter40_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
